-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x128 .f32) (main_arg4 : FVec F S64 .f32) (main_arg5 : FVec F S32x128 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x64 : Shape := ⟨2, ![64, 64]⟩
abbrev S1x64 : Shape := ⟨2, ![1, 64]⟩
abbrev S10000x64 : Shape := ⟨2, ![10000, 64]⟩
abbrev S32x64 : Shape := ⟨2, ![32, 64]⟩
abbrev S64x32 : Shape := ⟨2, ![64, 32]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 62
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S32x128, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S32x64, .f32⟩
  | .hbm, ⟨57, _⟩ => ⟨S64x32, .f32⟩
  | .hbm, ⟨58, _⟩ => ⟨S32x64, .f32⟩
  | .hbm, ⟨59, _⟩ => ⟨S64x32, .f32⟩
  | .hbm, ⟨60, _⟩ => ⟨S1x32, .f32⟩
  | .hbm, ⟨61, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S32x128_S32x64_0_0 : S32x128.Slices ![0, 0] S32x64
  transposes_S32x64_S64x32_1_0 : S32x64.Transposes [1, 0] S64x32
  slices_S32x128_S32x64_0_64 : S32x128.Slices ![0, 64] S32x64
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩
abbrev S128x32 : Shape := ⟨2, ![128, 32]⟩
abbrev S100000x32 : Shape := ⟨2, ![100000, 32]⟩
abbrev S1x32 : Shape := ⟨2, ![1, 32]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S32x128, .f32⟩
  | .hbm, ⟨6, _⟩ => ⟨S32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S128x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S100000x128, .f32⟩
  | .hbm, ⟨67, _⟩ => ⟨S128x32, .f32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S100000x128_S128x32_S100000x32_1_0_0_1_n_n_wf : DotDims.WF S100000x128 S128x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KDefs.lean ====
/-
  The host-side pieces of the kernel's program that the proof carries as named, unopened terms.

  `agg` sums a feature array over the incoming edges (gather the source node's row for every edge, add it into the
  destination node's row); `deg` counts the incoming edges (add a one per edge into the destination's slot); `scale` is
  the reciprocal of the degree clamped below by one, spread over the features.  The gather and the scatter-add are
  never opened: both programs apply the same ones to the same arrays.
-/
import proofs.«148539_j60327110639807_1_alg».proof.Proof.Gen.KernelIdeal
import Idealize.ShloMosaic.PureOps.Ideal

noncomputable section

namespace Cert.KernelIdeal.Layer

open Cert.KernelIdeal Cert.KernelIdeal.Facts₀ Idealize.ShloMosaic

/-- The sum of a feature array over the incoming edges, edge `e` running from node `src e` (a negative index counted
    from the end) to node `dst e`. -/
def agg (src dst : IVec S1600000 32) (x : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The number of incoming edges of every node, as a float array. -/
def deg (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The reciprocal of the in-degree clamped below by one, as a column. -/
def recip (dg : FVec Ideal S100000 .f32) : FVec Ideal S100000x1 .f32 :=
  broadcastInDim S100000x1 ![0] bcast_S100000_S100000x1_0
    (Host.divf (broadcastInDim S100000 ![] bcast_S_S100000 (constant (F := Ideal) S_ .f32 0x3F800000#32))
      (maximumf dg (broadcastInDim S100000 ![] bcast_S_S100000 (constant (F := Ideal) S_ .f32 0x3F800000#32))))

/-- That column spread over the 64 features. -/
def scale (dg : FVec Ideal S100000 .f32) : FVec Ideal S100000x64 .f32 :=
  broadcastInDim S100000x64 ![0, 1] bcast_S100000x1_S100000x64_0_1 (recip dg)

end Cert.KernelIdeal.Layer

end
-- ==== Proof.KHost.lean ====
/-
  What the arrays hold when each kernel is entered, as terms of the arguments.

  Before the first kernel the host computes the degree, its clamped reciprocal, the neighbour sums of the input features
  and their product with the reciprocal, cuts and transposes the two halves of the first weight matrix and reshapes the
  first bias.  Between the kernels it does the same with the first kernel's result and the second weights.  Each array a
  kernel reads is read back here through the host operations to the arguments (and, for the second kernel, to the
  first kernel's result array), the gather and scatter-add kept as the named terms `agg`, `deg`.
-/
import proofs.«148539_j60327110639807_1_alg».proof.Proof.Gen.KernelIdeal.Frame
import proofs.«148539_j60327110639807_1_alg».proof.Proof.KDefs
import Idealize.ShloMosaic.Lib.StableHlo.Run

set_option maxRecDepth 16384

noncomputable section

namespace Cert.KernelIdeal.HostVal

open Cert.KernelIdeal Cert.KernelIdeal.Facts₀ Cert.KernelIdeal.Gen Cert.KernelIdeal.Layer
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Entering the first kernel -/

theorem V1_arg0 (c : Dev nD) : V1 m ρ c main_arg0 = m ((c : Thread nD τ).loc main_arg0) := by
  show StableHlo.after hostOps0 (W0 m ρ c) (Proc.devRef .tc main_arg0) = _
  dsimp only [hostOps0]
  after_results_simp <;> rfl

theorem V1_v20 (c : Dev nD) : V1 m ρ c main_v20
    = mulf (agg (m ((c : Thread nD τ).loc main_arg1)) (m ((c : Thread nD τ).loc main_arg2)) (m ((c : Thread nD τ).loc main_arg0)))
        (scale (deg (m ((c : Thread nD τ).loc main_arg2)))) := by
  show StableHlo.after hostOps0 (W0 m ρ c) (Proc.devRef .tc main_v20) = _
  dsimp only [hostOps0]
  after_results_simp <;> rfl

theorem V1_v22 (c : Dev nD) : V1 m ρ c main_v22
    = transpose S64x64 [1, 0] (extractStridedSlice S64x64 ![0, 0] (m ((c : Thread nD τ).loc main_arg3)) Facts₀.slices_S64x128_S64x64_0_0) Facts₀.transposes_S64x64_S64x64_1_0 := by
  show StableHlo.after hostOps0 (W0 m ρ c) (Proc.devRef .tc main_v22) = _
  dsimp only [hostOps0]
  after_results_simp <;> rfl

theorem V1_v24 (c : Dev nD) : V1 m ρ c main_v24
    = transpose S64x64 [1, 0] (extractStridedSlice S64x64 ![0, 64] (m ((c : Thread nD τ).loc main_arg3)) Facts₀.slices_S64x128_S64x64_0_64) Facts₀.transposes_S64x64_S64x64_1_0 := by
  show StableHlo.after hostOps0 (W0 m ρ c) (Proc.devRef .tc main_v24) = _
  dsimp only [hostOps0]
  after_results_simp <;> rfl

theorem V1_v25 (c : Dev nD) : V1 m ρ c main_v25 = shapeCast S1x64 (m ((c : Thread nD τ).loc main_arg4)) Facts₀.shapeCasts_S64_S1x64 := by
  show StableHlo.after hostOps0 (W0 m ρ c) (Proc.devRef .tc main_v25) = _
  dsimp only [hostOps0]
  after_results_simp <;> rfl

/-- The clamped reciprocal degree the first stretch of host operations leaves for the second. -/
theorem V1_v8 (c : Dev nD) : V1 m ρ c main_v8 = recip (deg (m ((c : Thread nD τ).loc main_arg2))) := by
  show StableHlo.after hostOps0 (W0 m ρ c) (Proc.devRef .tc main_v8) = _
  dsimp only [hostOps0]
  after_results_simp <;> rfl

theorem V1_arg1 (c : Dev nD) : V1 m ρ c main_arg1 = m ((c : Thread nD τ).loc main_arg1) := by
  show StableHlo.after hostOps0 (W0 m ρ c) (Proc.devRef .tc main_arg1) = _
  dsimp only [hostOps0]
  after_results_simp <;> rfl

theorem V1_arg2 (c : Dev nD) : V1 m ρ c main_arg2 = m ((c : Thread nD τ).loc main_arg2) := by
  show StableHlo.after hostOps0 (W0 m ρ c) (Proc.devRef .tc main_arg2) = _
  dsimp only [hostOps0]
  after_results_simp <;> rfl

theorem V1_arg5 (c : Dev nD) : V1 m ρ c main_arg5 = m ((c : Thread nD τ).loc main_arg5) := by
  show StableHlo.after hostOps0 (W0 m ρ c) (Proc.devRef .tc main_arg5) = _
  dsimp only [hostOps0]
  after_results_simp <;> rfl

theorem V1_arg6 (c : Dev nD) : V1 m ρ c main_arg6 = m ((c : Thread nD τ).loc main_arg6) := by
  show StableHlo.after hostOps0 (W0 m ρ c) (Proc.devRef .tc main_arg6) = _
  dsimp only [hostOps0]
  after_results_simp <;> rfl

/-! ## Leaving the first kernel: only its result array has changed -/

theorem W2_v26 (c : Dev nD) : W2 m ρ c (Proc.devRef .tc main_v26) = (dat0 (V1 m ρ) c).arrAt 5 cfg0.N := W2_arr m ρ c 5
theorem W2_v8 (c : Dev nD) : W2 m ρ c (Proc.devRef .tc main_v8) = recip (deg (m ((c : Thread nD τ).loc main_arg2))) :=
  (W2_of_ne m ρ c main_v8 (by decide)).trans (V1_v8 m ρ c)
theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)

/-! ## Entering the second kernel -/

theorem V3_v26 (c : Dev nD) : V3 m ρ c main_v26 = (dat0 (V1 m ρ) c).arrAt 5 cfg0.N := by
  refine Eq.trans ?_ (W2_v26 m ρ c)
  show StableHlo.after hostOps1 (W2 m ρ c) (Proc.devRef .tc main_v26) = W2 m ρ c (Proc.devRef .tc main_v26)
  dsimp only [hostOps1]
  after_results_simp <;> rfl

theorem V3_v38 (c : Dev nD) : V3 m ρ c main_v38
    = mulf (agg (m ((c : Thread nD τ).loc main_arg1)) (m ((c : Thread nD τ).loc main_arg2)) ((dat0 (V1 m ρ) c).arrAt 5 cfg0.N))
        (scale (deg (m ((c : Thread nD τ).loc main_arg2)))) := by
  show StableHlo.after hostOps1 (W2 m ρ c) (Proc.devRef .tc main_v38) = _
  dsimp only [hostOps1]
  after_results_simp
  rw [W2_v26 m ρ c, W2_v8 m ρ c, W2_arg1 m ρ c, W2_arg2 m ρ c]
  rfl

theorem V3_v40 (c : Dev nD) : V3 m ρ c main_v40
    = transpose S64x32 [1, 0] (extractStridedSlice S32x64 ![0, 0] (m ((c : Thread nD τ).loc main_arg5)) Facts₀.slices_S32x128_S32x64_0_0) Facts₀.transposes_S32x64_S64x32_1_0 := by
  show StableHlo.after hostOps1 (W2 m ρ c) (Proc.devRef .tc main_v40) = _
  dsimp only [hostOps1]
  after_results_simp
  rw [W2_arg5 m ρ c]

theorem V3_v42 (c : Dev nD) : V3 m ρ c main_v42
    = transpose S64x32 [1, 0] (extractStridedSlice S32x64 ![0, 64] (m ((c : Thread nD τ).loc main_arg5)) Facts₀.slices_S32x128_S32x64_0_64) Facts₀.transposes_S32x64_S64x32_1_0 := by
  show StableHlo.after hostOps1 (W2 m ρ c) (Proc.devRef .tc main_v42) = _
  dsimp only [hostOps1]
  after_results_simp
  rw [W2_arg5 m ρ c]

theorem V3_v43 (c : Dev nD) : V3 m ρ c main_v43 = shapeCast S1x32 (m ((c : Thread nD τ).loc main_arg6)) Facts₀.shapeCasts_S32_S1x32 := by
  show StableHlo.after hostOps1 (W2 m ρ c) (Proc.devRef .tc main_v43) = _
  dsimp only [hostOps1]
  after_results_simp
  rw [W2_arg6 m ρ c]
  rfl

end Cert.KernelIdeal.HostVal

end
-- ==== Proof.KBody0.lean ====
/-
  What one grid point of the first convolution kernel stores, entry by entry.

  The body takes a block `x` of 10000 rows of node features, the matching block `a` of scaled neighbour sums, the two
  64 x 64 weight matrices `wx`, `wa` and the bias row `b`, rounds the four matrices to bf16 (the identity on the extended
  reals), multiplies each pair into a zero accumulator and adds the products and the bias, then clamps below at zero:
      out[p, q] = max(sum_k x[p,k] * wx[k,q] + sum_k a[p,k] * wa[k,q] + b[0,q], 0).
-/
import proofs.«148539_j60327110639807_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0

open Cert.KernelIdeal Cert.KernelIdeal.Gen Idealize.ShloMosaic Idealize.ShloMosaic.ValueIdx

/-- The contraction's left index at output entry `(p, q)` and contracted position `k` is `(p, k)`. -/
theorem lhsIdx_eq (p : Fin 10000) (q : Fin 64) (k : Fin 64) :
    dot_S10000x64_S64x64_S10000x64_1_0_0_1_n_n.lhsIdx (ix2 p q) ((contrEquiv1 dot_S10000x64_S64x64_S10000x64_1_0_0_1_n_n 64 rfl rfl).symm k) = ix2 p k := by
  have hk := contrEquiv1_symm_val dot_S10000x64_S64x64_S10000x64_1_0_0_1_n_n 64 rfl rfl k
  refine funext fun a => Fin.ext ?_
  match a with
  | ⟨0, _⟩ =>
    show (dot_S10000x64_S64x64_S10000x64_1_0_0_1_n_n.lhsIdx (ix2 p q) _ 0).val = p.val
    unfold DotDims.lhsIdx
    rw [dif_neg (show ¬(0 : Fin S10000x64.rank) ∈ dot_S10000x64_S64x64_S10000x64_1_0_0_1_n_n.lhsBatch by decide),
      dif_pos (show (0 : Fin S10000x64.rank) ∈ dot_S10000x64_S64x64_S10000x64_1_0_0_1_n_n.lhsNonContracting by decide)]
    rfl
  | ⟨1, _⟩ => exact (dot_S10000x64_S64x64_S10000x64_1_0_0_1_n_n.lhsIdx_val_of_single rfl (ix2 p q) _).trans hk

/-- The contraction's right index at output entry `(p, q)` and contracted position `k` is `(k, q)`. -/
theorem rhsIdx_eq (p : Fin 10000) (q : Fin 64) (k : Fin 64) :
    dot_S10000x64_S64x64_S10000x64_1_0_0_1_n_n.rhsIdx (ix2 p q) ((contrEquiv1 dot_S10000x64_S64x64_S10000x64_1_0_0_1_n_n 64 rfl rfl).symm k) = ix2 k q := by
  have hk := contrEquiv1_symm_val dot_S10000x64_S64x64_S10000x64_1_0_0_1_n_n 64 rfl rfl k
  refine funext fun a => Fin.ext ?_
  match a with
  | ⟨0, _⟩ => exact (dot_S10000x64_S64x64_S10000x64_1_0_0_1_n_n.rhsIdx_val_of_single rfl (ix2 p q) _).trans hk
  | ⟨1, _⟩ =>
    show (dot_S10000x64_S64x64_S10000x64_1_0_0_1_n_n.rhsIdx (ix2 p q) _ 1).val = q.val
    unfold DotDims.rhsIdx
    rw [dif_neg (show ¬(1 : Fin S64x64.rank) ∈ dot_S10000x64_S64x64_S10000x64_1_0_0_1_n_n.rhsBatch by decide),
      dif_pos (show (1 : Fin S64x64.rank) ∈ dot_S10000x64_S64x64_S10000x64_1_0_0_1_n_n.rhsNonContracting by decide)]
    rfl

/-- A block times a weight matrix into a zero accumulator, at `(p, q)`: the plain sum over the 64 contracted features. -/
theorem matmul_zero_apply (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q) = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  rw [lhsIdx_eq p q k, rhsIdx_eq p q k]

/-- The stored value at `(p, q)`. -/
theorem pay_apply (x a : Vec Ideal S10000x64 .f32) (wx wa : Vec Ideal S64x64 .f32) (b : Vec Ideal S1x64 .f32) (p : Fin 10000) (q : Fin 64) :
    k0_pay1 (F := Ideal) x a wx wa b (ix2 p q)
      = max ((∑ k : Fin 64, x (ix2 p k) * wx (ix2 k q)) + (∑ k : Fin 64, a (ix2 p k) * wa (ix2 k q)) + b (ix2 (0 : Fin 1) q)) (Ideal.ofBits .f32 0x00000000#32) := by
  unfold k0_pay1
  refine congrArg₂ max ?_ rfl
  refine congrArg₂ (· + ·) (congrArg₂ (· + ·) ?_ ?_) ?_
  · refine (matmul_zero_apply _ _ p q).trans (Finset.sum_congr rfl fun k _ => ?_)
    rw [shapeCast_self]
    rfl
  · refine (matmul_zero_apply _ _ p q).trans (Finset.sum_congr rfl fun k _ => ?_)
    rw [shapeCast_self, shapeCast_self]
    rfl
  · rw [shapeCast_self]
    exact broadcastTo_1b_ab_apply b _ p q

end Cert.KernelIdeal.Body0

end
-- ==== Proof.KRegion0.lean ====
/-
  From the blocks to the array, for the first convolution kernel.

  The grid has ten points; point `t` reads rows `10000 t … 10000 t + 9999` of the node features and of the scaled
  neighbour sums, the whole of both weight matrices and of the bias row, and writes back rows `10000 t …` of the result.
  So what point `t` writes back is block `t` of ONE function `G` of the five arrays as the kernel finds them, the ten
  blocks tile the 100000 rows, and the result array ends holding `G`.
-/
import proofs.«148539_j60327110639807_1_alg».proof.Proof.Gen.KernelIdeal.Frame
import proofs.«148539_j60327110639807_1_alg».proof.Proof.KBody0
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the five arrays the kernel reads: at node `i 0` and output feature `i 1`. -/
def G (X A : S100000x64.Idx → EReal) (WX WA : S64x64.Idx → EReal) (B : S1x64.Idx → EReal) : S100000x64.Idx → EReal := fun i =>
  max ((∑ k : Fin 64, X (ix2 (i 0) k) * WX (ix2 k (i 1))) + (∑ k : Fin 64, A (ix2 (i 0) k) * WA (ix2 k (i 1))) + B (ix2 (0 : Fin 1) (i 1))) (Ideal.ofBits .f32 0x00000000#32)

/-- One stored entry is `G` at the array index it is written to, once each loaded entry is the array's at the matching index. -/
theorem point_eq (X A : S100000x64.Idx → EReal) (WX WA : S64x64.Idx → EReal) (B : S1x64.Idx → EReal)
    (x a : Vec Ideal S10000x64 .f32) (wx wa : Vec Ideal S64x64 .f32) (b : Vec Ideal S1x64 .f32)
    (i : S100000x64.Idx) (p : Fin 10000) (q : Fin 64)
    (hx : ∀ k : Fin 64, x (ix2 p k) = X (ix2 (i 0) k)) (ha : ∀ k : Fin 64, a (ix2 p k) = A (ix2 (i 0) k))
    (hwx : ∀ k : Fin 64, wx (ix2 k q) = WX (ix2 k (i 1))) (hwa : ∀ k : Fin 64, wa (ix2 k q) = WA (ix2 k (i 1)))
    (hb : b (ix2 (0 : Fin 1) q) = B (ix2 (0 : Fin 1) (i 1))) :
    k0_pay1 (F := Ideal) x a wx wa b (ix2 p q) = G X A WX WA B i := by
  rw [Body0.pay_apply]
  unfold G
  refine congrArg₂ max ?_ rfl
  refine congrArg₂ (· + ·) (congrArg₂ (· + ·) (Finset.sum_congr rfl fun k _ => ?_) (Finset.sum_congr rfl fun k _ => ?_)) hb
  · rw [hx k, hwx k]
  · rw [ha k, hwa k]

/-- The printed index maps over the grid: the two row-blocked inputs move with the output, the other three stay at block 0. -/
theorem idx_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of `G` of the arrays as the kernel finds them. -/
theorem flushed_eq (c : Dev nD) (t : Fin cfg0.N) :
    (dat0 V c).flushed 5 t = ((cfg0.win 5).blk t).view.read (Elt Ideal) (G (V c main_arg0) (V c main_v20) (V c main_v22) (V c main_v24) (V c main_v25)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e51, e50⟩ := idx_facts t
  funext j
  obtain ⟨p, q, rfl⟩ : ∃ (p : Fin 10000) (q : Fin 64), j = ix2 p q := ⟨j 0, j 1, eq_ix2 j⟩
  refine point_eq (V c main_arg0) (V c main_v20) (V c main_v22) (V c main_v24) (V c main_v25) (iblk0 V c 0 t) (iblk0 V c 1 t) (iblk0 V c 2 t) (iblk0 V c 3 t) (iblk0 V c 4 t)
    (((cfg0.win 5).blk t).view.emb (ix2 p q)) p q (fun k => ?_) (fun k => ?_) (fun k => ?_) (fun k => ?_) ?_
  · show V c main_arg0 (((cfg0.win 0).blk t).view.emb (ix2 p k)) = V c main_arg0 _
    refine congrArg _ (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_v20 (((cfg0.win 1).blk t).view.emb (ix2 p k)) = V c main_v20 _
    refine congrArg _ (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_v22 (((cfg0.win 2).blk t).view.emb (ix2 k q)) = V c main_v22 _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  · show V c main_v24 (((cfg0.win 3).blk t).view.emb (ix2 k q)) = V c main_v24 _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  · show V c main_v25 (((cfg0.win 4).blk t).view.emb (ix2 (0 : Fin 1) q)) = V c main_v25 _
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * q.val = win0_5.index t (1 : Fin 2) * 64 + 1 * q.val; omega

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- The ten row blocks tile the array: row `r` is in the block of point `r / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the kernel: `G` of the five arrays as the kernel finds them. -/
theorem final (c : Dev nD) : (dat0 V c).arrAt 5 cfg0.N = G (V c main_arg0) (V c main_v20) (V c main_v22) (V c main_v24) (V c main_v25) :=
  (dat0 V c).arrAt_eq_of_cover 5 _ (fun t _ => flushed_eq V c t) cover

end Cert.KernelIdeal.Region0

end
-- ==== Proof.KBody1.lean ====
/-
  What one grid point of the second convolution kernel stores, entry by entry.

  The body takes a block `x` of 10000 rows of node features, the matching block `a` of scaled neighbour sums, the two
  64 x 32 weight matrices `wx`, `wa` and the bias row `b`, rounds the four matrices to bf16 (the identity on the extended
  reals), multiplies each pair into a zero accumulator and adds the products and the bias:
      out[p, q] = sum_k x[p,k] * wx[k,q] + sum_k a[p,k] * wa[k,q] + b[0,q].
-/
import proofs.«148539_j60327110639807_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body1

open Cert.KernelIdeal Cert.KernelIdeal.Gen Idealize.ShloMosaic Idealize.ShloMosaic.ValueIdx

/-- The contraction's left index at output entry `(p, q)` and contracted position `k` is `(p, k)`. -/
theorem lhsIdx_eq (p : Fin 10000) (q : Fin 32) (k : Fin 64) :
    dot_S10000x64_S64x32_S10000x32_1_0_0_1_n_n.lhsIdx (ix2 p q) ((contrEquiv1 dot_S10000x64_S64x32_S10000x32_1_0_0_1_n_n 64 rfl rfl).symm k) = ix2 p k := by
  have hk := contrEquiv1_symm_val dot_S10000x64_S64x32_S10000x32_1_0_0_1_n_n 64 rfl rfl k
  refine funext fun a => Fin.ext ?_
  match a with
  | ⟨0, _⟩ =>
    show (dot_S10000x64_S64x32_S10000x32_1_0_0_1_n_n.lhsIdx (ix2 p q) _ 0).val = p.val
    unfold DotDims.lhsIdx
    rw [dif_neg (show ¬(0 : Fin S10000x64.rank) ∈ dot_S10000x64_S64x32_S10000x32_1_0_0_1_n_n.lhsBatch by decide),
      dif_pos (show (0 : Fin S10000x64.rank) ∈ dot_S10000x64_S64x32_S10000x32_1_0_0_1_n_n.lhsNonContracting by decide)]
    rfl
  | ⟨1, _⟩ => exact (dot_S10000x64_S64x32_S10000x32_1_0_0_1_n_n.lhsIdx_val_of_single rfl (ix2 p q) _).trans hk

/-- The contraction's right index at output entry `(p, q)` and contracted position `k` is `(k, q)`. -/
theorem rhsIdx_eq (p : Fin 10000) (q : Fin 32) (k : Fin 64) :
    dot_S10000x64_S64x32_S10000x32_1_0_0_1_n_n.rhsIdx (ix2 p q) ((contrEquiv1 dot_S10000x64_S64x32_S10000x32_1_0_0_1_n_n 64 rfl rfl).symm k) = ix2 k q := by
  have hk := contrEquiv1_symm_val dot_S10000x64_S64x32_S10000x32_1_0_0_1_n_n 64 rfl rfl k
  refine funext fun a => Fin.ext ?_
  match a with
  | ⟨0, _⟩ => exact (dot_S10000x64_S64x32_S10000x32_1_0_0_1_n_n.rhsIdx_val_of_single rfl (ix2 p q) _).trans hk
  | ⟨1, _⟩ =>
    show (dot_S10000x64_S64x32_S10000x32_1_0_0_1_n_n.rhsIdx (ix2 p q) _ 1).val = q.val
    unfold DotDims.rhsIdx
    rw [dif_neg (show ¬(1 : Fin S64x32.rank) ∈ dot_S10000x64_S64x32_S10000x32_1_0_0_1_n_n.rhsBatch by decide),
      dif_pos (show (1 : Fin S64x32.rank) ∈ dot_S10000x64_S64x32_S10000x32_1_0_0_1_n_n.rhsNonContracting by decide)]
    rfl

/-- A block times a weight matrix into a zero accumulator, at `(p, q)`: the plain sum over the 64 contracted features. -/
theorem matmul_zero_apply (l : FVec Ideal S10000x64 .bf16) (r : FVec Ideal S64x32 .bf16) (p : Fin 10000) (q : Fin 32) :
    matmul dot_S10000x64_S64x32_S10000x32_1_0_0_1_n_n none l r (constant S10000x32 .f32 0x00000000#32) (ix2 p q) = ∑ k : Fin 64, l (ix2 p k) * r (ix2 k q) := by
  refine (Ideal.matmul_constant_zero_apply dot_S10000x64_S64x32_S10000x32_1_0_0_1_n_n none l r (ix2 p q)).trans ?_
  rw [← Equiv.sum_comp (contrEquiv1 dot_S10000x64_S64x32_S10000x32_1_0_0_1_n_n 64 rfl rfl).symm]
  refine Finset.sum_congr rfl fun k _ => ?_
  rw [lhsIdx_eq p q k, rhsIdx_eq p q k]

/-- The stored value at `(p, q)`. -/
theorem pay_apply (x a : Vec Ideal S10000x64 .f32) (wx wa : Vec Ideal S64x32 .f32) (b : Vec Ideal S1x32 .f32) (p : Fin 10000) (q : Fin 32) :
    k1_pay1 (F := Ideal) x a wx wa b (ix2 p q)
      = (∑ k : Fin 64, x (ix2 p k) * wx (ix2 k q)) + (∑ k : Fin 64, a (ix2 p k) * wa (ix2 k q)) + b (ix2 (0 : Fin 1) q) := by
  unfold k1_pay1
  refine congrArg₂ (· + ·) (congrArg₂ (· + ·) ?_ ?_) ?_
  · refine (matmul_zero_apply _ _ p q).trans (Finset.sum_congr rfl fun k _ => ?_)
    rw [shapeCast_self]
    rw [shapeCast_self]
    rfl
  · refine (matmul_zero_apply _ _ p q).trans (Finset.sum_congr rfl fun k _ => ?_)
    rw [shapeCast_self, shapeCast_self]
    rfl
  · rw [shapeCast_self]
    exact broadcastTo_1b_ab_apply b _ p q

end Cert.KernelIdeal.Body1

end
-- ==== Proof.KRegion1.lean ====
/-
  From the blocks to the array, for the second convolution kernel.

  The grid has ten points; point `t` reads rows `10000 t … 10000 t + 9999` of the node features and of the scaled
  neighbour sums, the whole of both weight matrices and of the bias row, and writes back rows `10000 t …` of the result.
  So what point `t` writes back is block `t` of ONE function `G` of the five arrays as the kernel finds them, the ten
  blocks tile the 100000 rows, and the result array ends holding `G`.
-/
import proofs.«148539_j60327110639807_1_alg».proof.Proof.Gen.KernelIdeal.Frame
import proofs.«148539_j60327110639807_1_alg».proof.Proof.KBody1
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the five arrays the kernel reads: at node `i 0` and output feature `i 1`. -/
def G (X A : S100000x64.Idx → EReal) (WX WA : S64x32.Idx → EReal) (B : S1x32.Idx → EReal) : S100000x32.Idx → EReal := fun i =>
  (∑ k : Fin 64, X (ix2 (i 0) k) * WX (ix2 k (i 1))) + (∑ k : Fin 64, A (ix2 (i 0) k) * WA (ix2 k (i 1))) + B (ix2 (0 : Fin 1) (i 1))

/-- One stored entry is `G` at the array index it is written to, once each loaded entry is the array's at the matching index. -/
theorem point_eq (X A : S100000x64.Idx → EReal) (WX WA : S64x32.Idx → EReal) (B : S1x32.Idx → EReal)
    (x a : Vec Ideal S10000x64 .f32) (wx wa : Vec Ideal S64x32 .f32) (b : Vec Ideal S1x32 .f32)
    (i : S100000x32.Idx) (p : Fin 10000) (q : Fin 32)
    (hx : ∀ k : Fin 64, x (ix2 p k) = X (ix2 (i 0) k)) (ha : ∀ k : Fin 64, a (ix2 p k) = A (ix2 (i 0) k))
    (hwx : ∀ k : Fin 64, wx (ix2 k q) = WX (ix2 k (i 1))) (hwa : ∀ k : Fin 64, wa (ix2 k q) = WA (ix2 k (i 1)))
    (hb : b (ix2 (0 : Fin 1) q) = B (ix2 (0 : Fin 1) (i 1))) :
    k1_pay1 (F := Ideal) x a wx wa b (ix2 p q) = G X A WX WA B i := by
  rw [Body1.pay_apply]
  unfold G
  refine congrArg₂ (· + ·) (congrArg₂ (· + ·) (Finset.sum_congr rfl fun k _ => ?_) (Finset.sum_congr rfl fun k _ => ?_)) hb
  · rw [hx k, hwx k]
  · rw [ha k, hwa k]

/-- The printed index maps over the grid: the two row-blocked inputs move with the output, the other three stay at block 0. -/
theorem idx_facts : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of `G` of the arrays as the kernel finds them. -/
theorem flushed_eq (c : Dev nD) (t : Fin cfg1.N) :
    (dat1 V c).flushed 5 t = ((cfg1.win 5).blk t).view.read (Elt Ideal) (G (V c main_v26) (V c main_v38) (V c main_v40) (V c main_v42) (V c main_v43)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x32) hz, View.ld_unit_zero (S := S1x32) hz]
  obtain ⟨e00, e01, e10, e11, e20, e21, e30, e31, e40, e41, e51, e50⟩ := idx_facts t
  funext j
  obtain ⟨p, q, rfl⟩ : ∃ (p : Fin 10000) (q : Fin 32), j = ix2 p q := ⟨j 0, j 1, eq_ix2 j⟩
  refine point_eq (V c main_v26) (V c main_v38) (V c main_v40) (V c main_v42) (V c main_v43) (iblk1 V c 0 t) (iblk1 V c 1 t) (iblk1 V c 2 t) (iblk1 V c 3 t) (iblk1 V c 4 t)
    (((cfg1.win 5).blk t).view.emb (ix2 p q)) p q (fun k => ?_) (fun k => ?_) (fun k => ?_) (fun k => ?_) ?_
  · show V c main_v26 (((cfg1.win 0).blk t).view.emb (ix2 p k)) = V c main_v26 _
    refine congrArg _ (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  · show V c main_v38 (((cfg1.win 1).blk t).view.emb (ix2 p k)) = V c main_v38 _
    refine congrArg _ (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  · show V c main_v40 (((cfg1.win 2).blk t).view.emb (ix2 k q)) = V c main_v40 _
    refine congrArg _ (funext fun a => Fin.ext ?_)
    match a with
    | ⟨0, _⟩ => show win1_2.index t (0 : Fin 2) * 64 + 1 * k.val = k.val; omega
    | ⟨1, _⟩ => show win1_2.index t (1 : Fin 2) * 32 + 1 * q.val = win1_5.index t (1 : Fin 2) * 32 + 1 * q.val; omega
  · show V c main_v42 (((cfg1.win 3).blk t).view.emb (ix2 k q)) = V c main_v42 _
    refine congrArg _ (funext fun a => Fin.ext ?_)
    match a with
    | ⟨0, _⟩ => show win1_3.index t (0 : Fin 2) * 64 + 1 * k.val = k.val; omega
    | ⟨1, _⟩ => show win1_3.index t (1 : Fin 2) * 32 + 1 * q.val = win1_5.index t (1 : Fin 2) * 32 + 1 * q.val; omega
  · show V c main_v43 (((cfg1.win 4).blk t).view.emb (ix2 (0 : Fin 1) q)) = V c main_v43 _
    refine congrArg _ (funext fun a => Fin.ext ?_)
    match a with
    | ⟨0, _⟩ => show win1_4.index t (0 : Fin 2) * 1 + 1 * 0 = 0; omega
    | ⟨1, _⟩ => show win1_4.index t (1 : Fin 2) * 32 + 1 * q.val = win1_5.index t (1 : Fin 2) * 32 + 1 * q.val; omega

/-- An index of the result array is in point `t`'s block iff each coordinate is in the block's range on its axis. -/
theorem mem_blk (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v44).slice (win1_5.rect t)).set ↔ _
  rw [View.set_slice_whole, Rect.mem_set_unit]
  exact Iff.rfl

/-- The ten row blocks tile the array: row `r` is in the block of point `r / 10000`. -/
theorem cover (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- The result array after the kernel: `G` of the five arrays as the kernel finds them. -/
theorem final (c : Dev nD) : (dat1 V c).arrAt 5 cfg1.N = G (V c main_v26) (V c main_v38) (V c main_v40) (V c main_v42) (V c main_v43) :=
  (dat1 V c).arrAt_eq_of_cover 5 _ (fun t _ => flushed_eq V c t) cover

end Cert.KernelIdeal.Region1

end
-- ==== Proof.Spec.lean ====
/-
  The mathematics both programs compute, stated once over plain index functions on the extended reals.

  A mean-aggregating graph convolution layer: node `i`'s new feature `o` is
      sum_k x[i,k] * W[o,k]  +  sum_k (a[i,k] * (1 / max(deg[i], 1))) * W[o,64+k]  +  b[o]
  where `x` are the node features, `a` the sum of the features over the incoming edges and `deg` the number of
  incoming edges.  The reference divides the neighbour sum by `max(deg, 1)`, joins it to `x` along the feature
  axis and contracts the 128 joined features with `W`; the kernel multiplies by the reciprocal and contracts the
  two halves of `W` apart.  On the extended reals a quotient by a nonzero `y` IS the product with `1 / y`, and a sum
  over 64 + 64 indices IS the sum of the two halves' sums: no finiteness is needed.
-/
import Idealize.ShloMosaic.PureOps.Ideal
import Idealize.ShloMosaic.PureOps.Ideal.Laws
import Idealize.ShloMosaic.Lib.ValueIdx

noncomputable section

open scoped BigOperators

namespace Sage

open Idealize.ShloMosaic Idealize.ShloMosaic.ValueIdx

/-- A rank-2 array of extended reals. -/
abbrev Arr2 (A B : Nat) : Type := (⟨2, ![A, B]⟩ : Shape).Idx → EReal
/-- A rank-1 array of extended reals. -/
abbrev Arr1 (A : Nat) : Type := (⟨1, ![A]⟩ : Shape).Idx → EReal

/-- The float word of `1.0`, read on the extended reals. -/
abbrev one : EReal := Ideal.ofBits .f32 0x3F800000#32
/-- The float word of `0.0`, read on the extended reals. -/
abbrev zero : EReal := Ideal.ofBits .f32 0x00000000#32

/-- The word `0x3F800000` denotes the real number one. -/
theorem one_eq : one = 1 := by
  simp [one, Ideal.ofBits, Ideal.ieee]
  first
    | (rw [← EReal.coe_mul]; norm_num)
    | (norm_cast; norm_num)
    | (rw [← EReal.coe_mul, ← EReal.coe_one]; exact congrArg _ (by norm_num))

/-- A degree clamped below by one is never zero. -/
theorem max_one_ne_zero (d : EReal) : max d one ≠ 0 := by
  have h : (0 : EReal) < max d one := lt_of_lt_of_le (by rw [one_eq]; exact zero_lt_one) (le_max_right d one)
  exact ne_of_gt h

/-- Multiplying by the reciprocal of a nonzero `y` is dividing by `y`, for every extended real dividend. -/
theorem mul_recip (x y : EReal) (hy : y ≠ 0) : x * Ideal.div one y = Ideal.div x y := by
  rw [Ideal.div, if_neg hy, Ideal.div, if_neg hy, one_eq, one_mul]

/-- The mean-aggregation factor applied the kernel's way equals the reference's quotient. -/
theorem mul_recip_max (x d : EReal) : x * Ideal.div one (max d one) = Ideal.div x (max d one) :=
  mul_recip x _ (max_one_ne_zero d)

/-- One convolution layer before its activation, at every node and output feature. -/
def lin {N O : Nat} (x a : Arr2 N 64) (deg : Arr1 N) (W : Arr2 O 128) (b : Arr1 O) : Arr2 N O := fun j =>
  (∑ k : Fin 64, x (ix2 (j 0) k) * W (ix2 (j 1) (Fin.castAdd 64 k)))
    + (∑ k : Fin 64, (a (ix2 (j 0) k) * Ideal.div one (max (deg (ix1 (j 0))) one)) * W (ix2 (j 1) (Fin.natAdd 64 k)))
    + b (ix1 (j 1))

/-- The rectifier, entry by entry. -/
def relu {N O : Nat} (y : Arr2 N O) : Arr2 N O := fun j => max (y j) zero

/-- The two-layer network: `agg` sums a feature array over the incoming edges, `deg` counts them. -/
def net {N : Nat} (agg : Arr2 N 64 → Arr2 N 64) (deg : Arr1 N) (h : Arr2 N 64) (W1 : Arr2 64 128) (b1 : Arr1 64)
    (W2 : Arr2 32 128) (b2 : Arr1 32) : Arr2 N 32 :=
  lin (relu (lin h (agg h) deg W1 b1)) (agg (relu (lin h (agg h) deg W1 b1))) deg W2 b2

/-- The layer as the reference spells it: ONE contraction over the 128 joined features `cat` (the node's own 64
    features, then the 64 neighbour means `a / max(deg, 1)`) against the 128 weights `w` of the output feature. -/
theorem lin_of_joined {N O : Nat} (x a : Arr2 N 64) (deg : Arr1 N) (W : Arr2 O 128) (b : Arr1 O) (j : (⟨2, ![N, O]⟩ : Shape).Idx)
    (cat w : Fin 128 → EReal)
    (hx : ∀ k : Fin 64, cat (Fin.castAdd 64 k) = x (ix2 (j 0) k))
    (ha : ∀ k : Fin 64, cat (Fin.natAdd 64 k) = Ideal.div (a (ix2 (j 0) k)) (max (deg (ix1 (j 0))) one))
    (hw : ∀ k : Fin 128, w k = W (ix2 (j 1) k)) :
    (∑ k : Fin 128, cat k * w k) + b (ix1 (j 1)) = lin x a deg W b j := by
  unfold lin
  refine congrArg (· + b (ix1 (j 1))) ?_
  rw [show (∑ k : Fin 128, cat k * w k) = ∑ k : Fin (64 + 64), cat k * w k from rfl, Fin.sum_univ_add]
  refine congrArg₂ (· + ·) (Finset.sum_congr rfl fun k _ => ?_) (Finset.sum_congr rfl fun k _ => ?_)
  · rw [hx, hw]
  · rw [ha, hw, mul_recip_max]

/-- The layer as the kernel spells it: the node features against the first 64 weights `wx`, the neighbour sums
    ALREADY scaled by the reciprocal degree (`as`) against the last 64 weights `wa`, then the bias `bb`. -/
theorem lin_of_halves {N O : Nat} (x a : Arr2 N 64) (deg : Arr1 N) (W : Arr2 O 128) (b : Arr1 O) (j : (⟨2, ![N, O]⟩ : Shape).Idx)
    (xs as wx wa : Fin 64 → EReal) (bb : EReal)
    (hx : ∀ k, xs k = x (ix2 (j 0) k))
    (ha : ∀ k, as k = a (ix2 (j 0) k) * Ideal.div one (max (deg (ix1 (j 0))) one))
    (hwx : ∀ k, wx k = W (ix2 (j 1) (Fin.castAdd 64 k)))
    (hwa : ∀ k, wa k = W (ix2 (j 1) (Fin.natAdd 64 k)))
    (hb : bb = b (ix1 (j 1))) :
    (∑ k : Fin 64, xs k * wx k) + (∑ k : Fin 64, as k * wa k) + bb = lin x a deg W b j := by
  unfold lin
  rw [hb]
  refine congrArg (· + b (ix1 (j 1))) ?_
  refine congrArg₂ (· + ·) (Finset.sum_congr rfl fun k _ => ?_) (Finset.sum_congr rfl fun k _ => ?_)
  · rw [hx, hwx]
  · rw [ha, hwa]

end Sage

end
-- ==== Proof.KLayer.lean ====
/-
  One convolution layer, from the arrays the kernel is handed to the layer's formula.

  The host hands each kernel: the node features `x`; the neighbour sums `msg` ALREADY multiplied, entry by entry, by the
  reciprocal of the clamped in-degree (a column, spread over the 64 features); the two halves of the weight matrix, each
  cut out of `W` along its second axis and transposed; and the bias as a one-row matrix.  Reading each of those
  rearrangements at an index turns the kernel's result into the layer's formula: the first half of `W` meets the node's
  own features, the second half the scaled neighbour sums.
-/
import proofs.«148539_j60327110639807_1_alg».proof.Proof.KRegion0
import proofs.«148539_j60327110639807_1_alg».proof.Proof.KRegion1
import proofs.«148539_j60327110639807_1_alg».proof.Proof.Spec
import proofs.«148539_j60327110639807_1_alg».proof.Proof.KDefs
import Idealize.ShloMosaic.Lib.ValueLayout
import Idealize.ShloMosaic.Lib.Pipeline.Value
import Idealize.ShloMosaic.Lib.ValueIdx

noncomputable section

open scoped BigOperators

namespace Cert.KernelIdeal.Layer

open Cert.KernelIdeal Cert.KernelIdeal.Facts₀ Idealize.ShloMosaic Idealize.ShloMosaic.ValueIdx

/-- At node `p`, whatever the feature: one over the larger of the degree and one. -/
theorem scale_apply (dg : FVec Ideal S100000 .f32) (p : Fin 100000) (k : Fin 64) :
    scale dg (ix2 p k) = Ideal.div Sage.one (max (dg (ix1 p)) Sage.one) := by
  unfold scale recip
  refine (broadcastInDim_apply _ bcast_S100000x1_S100000x64_0_1 _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])).trans ?_
  refine (broadcastInDim_apply _ bcast_S100000_S100000x1_0 _ (ix2 p (0 : Fin 1)) (ix1 p) (fun a => match a with
    | ⟨0, _⟩ => by show p.val = if (100000 : Nat) = 1 then 0 else p.val; rw [if_neg (by decide)])).trans ?_
  rfl

/-- The first kernel's result on the arrays the host hands it is the first layer, rectified. -/
theorem layer0 (x msg : FVec Ideal S100000x64 .f32) (dg : FVec Ideal S100000 .f32) (W : FVec Ideal S64x128 .f32) (b : FVec Ideal S64 .f32) :
    Region0.G x (mulf msg (scale dg))
      (transpose S64x64 [1, 0] (extractStridedSlice S64x64 ![0, 0] W slices_S64x128_S64x64_0_0) transposes_S64x64_S64x64_1_0)
      (transpose S64x64 [1, 0] (extractStridedSlice S64x64 ![0, 64] W slices_S64x128_S64x64_0_64) transposes_S64x64_S64x64_1_0)
      (shapeCast S1x64 b shapeCasts_S64_S1x64)
    = Sage.relu (Sage.lin x msg dg W b) := by
  funext i
  obtain ⟨p, q, rfl⟩ : ∃ (p : Fin 100000) (q : Fin 64), i = ix2 p q := ⟨i 0, i 1, eq_ix2 i⟩
  unfold Region0.G Sage.relu
  refine congrArg₂ max ?_ rfl
  refine Sage.lin_of_halves x msg dg W b (ix2 p q) _ _ _ _ _ (fun k => rfl) (fun k => ?_) (fun k => ?_) (fun k => ?_) ?_
  · exact congrArg (msg (ix2 p k) * ·) (scale_apply dg p k)
  · exact (transpose_ix2_apply _ transposes_S64x64_S64x64_1_0 k q).trans
      (slice2_axis1_apply 0 W slices_S64x128_S64x64_0_0 q k (Fin.castAdd 64 k) (by simp))
  · exact (transpose_ix2_apply _ transposes_S64x64_S64x64_1_0 k q).trans
      (slice2_axis1_apply 64 W slices_S64x128_S64x64_0_64 q k (Fin.natAdd 64 k) rfl)
  · exact shapeCast_a_1a_apply b shapeCasts_S64_S1x64 0 q

/-- The second kernel's result on the arrays the host hands it is the second layer. -/
theorem layer1 (x msg : FVec Ideal S100000x64 .f32) (dg : FVec Ideal S100000 .f32) (W : FVec Ideal S32x128 .f32) (b : FVec Ideal S32 .f32) :
    Region1.G x (mulf msg (scale dg))
      (transpose S64x32 [1, 0] (extractStridedSlice S32x64 ![0, 0] W slices_S32x128_S32x64_0_0) transposes_S32x64_S64x32_1_0)
      (transpose S64x32 [1, 0] (extractStridedSlice S32x64 ![0, 64] W slices_S32x128_S32x64_0_64) transposes_S32x64_S64x32_1_0)
      (shapeCast S1x32 b shapeCasts_S32_S1x32)
    = Sage.lin x msg dg W b := by
  funext i
  obtain ⟨p, q, rfl⟩ : ∃ (p : Fin 100000) (q : Fin 32), i = ix2 p q := ⟨i 0, i 1, eq_ix2 i⟩
  unfold Region1.G
  refine Sage.lin_of_halves x msg dg W b (ix2 p q) _ _ _ _ _ (fun k => rfl) (fun k => ?_) (fun k => ?_) (fun k => ?_) ?_
  · exact congrArg (msg (ix2 p k) * ·) (scale_apply dg p k)
  · exact (transpose_ix2_apply _ transposes_S32x64_S64x32_1_0 k q).trans
      (slice2_axis1_apply 0 W slices_S32x128_S32x64_0_0 q k (Fin.castAdd 64 k) (by simp))
  · exact (transpose_ix2_apply _ transposes_S32x64_S64x32_1_0 k q).trans
      (slice2_axis1_apply 64 W slices_S32x128_S32x64_0_64 q k (Fin.natAdd 64 k) rfl)
  · exact shapeCast_a_1a_apply b shapeCasts_S32_S1x32 0 q

end Cert.KernelIdeal.Layer

end
-- ==== Proof.KRun.lean ====
/-
  The run of the kernel's program with every array named at its end.

  @main is four segments: a stretch of host operations, the first kernel, a second stretch, the second kernel.  The
  contents of a core's buffers are folded through them: a host stretch rewrites the buffers its operations write, a
  kernel rewrites its result array with what its grid points write back.  Every weakly fair execution terminates with
  every unscoped buffer at the fold's last contents; in particular the result array holds what the second kernel's
  points wrote back, and no argument array has changed.
-/
import proofs.«148539_j60327110639807_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- Every weakly fair execution terminates, nothing faulting, with every unscoped buffer of every core at the contents
    the fold through the four segments leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result array and at the seven arguments. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Run

end
-- ==== Proof.KValue.lean ====
/-
  The kernel program's result array as the two-layer network of its arguments.

  The result array ends holding what the second kernel writes back, which is the second layer's formula of the arrays
  that kernel is handed; those are the first kernel's result array (the first layer, rectified), its neighbour sums
  scaled by the reciprocal degree, and the cut, transposed halves of the second weight matrix with the second bias.
-/
import proofs.«148539_j60327110639807_1_alg».proof.Proof.KHost
import proofs.«148539_j60327110639807_1_alg».proof.Proof.KLayer
import proofs.«148539_j60327110639807_1_alg».proof.Proof.KRun

set_option maxRecDepth 16384

noncomputable section

namespace Cert.KernelIdeal.Result

open Cert.KernelIdeal Cert.KernelIdeal.Gen Cert.KernelIdeal.Layer
open Idealize.ShloMosaic Idealize.ShloMosaic.TcCoe Idealize.SL.Sem

variable (m : (ℓ : Loc nD τ sig) → Buf (Elt Ideal) ℓ) (ρ : Dev nD → PrngReg)

/-- The first kernel's result array: the first layer of the network, rectified. -/
theorem hidden_eq (c : Dev nD) : (dat0 (V1 m ρ) c).arrAt 5 cfg0.N
    = Sage.relu (Sage.lin (m ((c : Thread nD τ).loc main_arg0)) (agg (m ((c : Thread nD τ).loc main_arg1)) (m ((c : Thread nD τ).loc main_arg2)) (m ((c : Thread nD τ).loc main_arg0))) (deg (m ((c : Thread nD τ).loc main_arg2))) (m ((c : Thread nD τ).loc main_arg3)) (m ((c : Thread nD τ).loc main_arg4))) := by
  rw [Region0.final (V1 m ρ) c, HostVal.V1_arg0 m ρ c, HostVal.V1_v20 m ρ c, HostVal.V1_v22 m ρ c, HostVal.V1_v24 m ρ c,
    HostVal.V1_v25 m ρ c]
  exact layer0 _ _ _ _ _

/-- The program's result array: the two-layer network of the arguments. -/
theorem result_eq (c : Dev nD) : W4 m ρ c (Proc.devRef .tc main_v44)
    = Sage.net (agg (m ((c : Thread nD τ).loc main_arg1)) (m ((c : Thread nD τ).loc main_arg2))) (deg (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) := by
  refine (W4_arr m ρ c 5).trans ?_
  rw [Region1.final (V3 m ρ) c, HostVal.V3_v26 m ρ c, HostVal.V3_v38 m ρ c, HostVal.V3_v40 m ρ c, HostVal.V3_v42 m ρ c,
    HostVal.V3_v43 m ρ c, hidden_eq m ρ c]
  exact layer1 _ _ _ _ _

/-- Every weakly fair execution of the kernel's program terminates with the result array at the network of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v44)
        = Sage.net (agg (m ((c : Thread nD τ).loc main_arg1)) (m ((c : Thread nD τ).loc main_arg2))) (deg (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Run.run_result m ρ)

end Cert.KernelIdeal.Result

end
-- ==== Proof.RefValue.lean ====
/-
  The reference side, read against the specification.

  Each layer of the reference joins the node features with the neighbour means along the feature axis and
  contracts the 128 joined features with the weights, one sum over k < 128 per output entry. Reading the joined
  array at a column k < 64 gives the node's own feature k; at a column 64 + k it gives the neighbour sum's feature k
  divided by max(deg, 1), the degree broadcast along the feature axis. The transposed weight at (k, o) is the
  weight at (o, k), and the bias broadcast along the nodes is the bias at the output feature. That is exactly the
  joined form of the specification's layer. The second layer's aggregation and degree are the first layer's
  terms at the first layer's output: the edge lists enter them in the same way. The aggregation over the edges
  and the degree count are never opened.
-/
import proofs.«148539_j60327110639807_1_alg».proof.Proof.Gen.ReferenceIdeal.Read
import proofs.«148539_j60327110639807_1_alg».proof.Proof.Spec
import Idealize.ShloMosaic.Lib.Pipeline.Value
import Idealize.ShloMosaic.Lib.ValueIdx
import Idealize.ShloMosaic.PureOps.Ideal.Laws

noncomputable section
namespace Cert.ReferenceIdeal.RefValue
open Cert.ReferenceIdeal Cert.ReferenceIdeal.Gen Cert.ReferenceIdeal.Read Idealize.ShloMosaic Idealize.ShloMosaic.ValueIdx

/-- The joined array, at a column below 64, is the first piece at that column. -/
theorem cat_left (y z : (⟨S100000x64, .f32⟩ : BufTy).Contents (Elt Ideal)) (j : S100000x128.Idx) (k : Fin 64)
    (hk : (j 1).val = k.val) :
    concatenate S100000x128 1 [⟨S100000x64, y⟩, ⟨S100000x64, z⟩] concatenates_S100000x64_S100000x64_S100000x128_d1 j
      = y (ix2 (j 0) k) := by
  refine concatenate_pair_apply_left (1 : Fin S100000x128.rank) y z _ j rfl (ix2 (j 0) k) ?_
  intro b
  match b with
  | ⟨0, _⟩ => rfl
  | ⟨1, _⟩ => exact hk.symm

/-- The joined array, at a column 64 + k, is the second piece at column k. -/
theorem cat_right (y z : (⟨S100000x64, .f32⟩ : BufTy).Contents (Elt Ideal)) (j : S100000x128.Idx) (k : Fin 64)
    (hk : k.val + 64 = (j 1).val) :
    concatenate S100000x128 1 [⟨S100000x64, y⟩, ⟨S100000x64, z⟩] concatenates_S100000x64_S100000x64_S100000x128_d1 j
      = z (ix2 (j 0) k) := by
  refine concatenate_pair_apply_right (1 : Fin S100000x128.rank) y z _ j rfl rfl (ix2 (j 0) k) ?_ ?_
  · intro b hb
    match b with
    | ⟨0, _⟩ => rfl
    | ⟨1, _⟩ => exact absurd rfl hb
  · exact hk

/-- layer 1 of the reference is the specification's layer followed by the rectifier -/
theorem layer1_eq (x0 : (⟨S100000x64, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal)) :
    val_main_v25 (F := Ideal) x0 x1 x2 x3 x4
      = Sage.relu (Sage.lin x0 (val_main_v9 (F := Ideal) x0 x1 x2) (val_main_v13 (F := Ideal) x2) x3 x4) := by
  funext j
  rw [val_main_v25_apply, val_main_v24_apply, val_main_v21_apply, val_main_call0_v0_apply, val_main_call0_cst_apply,
    val_main_v23_apply, val_main_v22_apply, Ideal.maximumf_def, Ideal.addf_def, Ideal.ofBits_def]
  have hb : idx_main_v22 (idx_main_v23 j) = ix1 (j 1) := funext fun a => match a with | ⟨0, _⟩ => rfl
  rw [hb]
  refine congrArg (fun t => max t Sage.zero) ?_
  refine Sage.lin_of_joined x0 (val_main_v9 (F := Ideal) x0 x1 x2) (val_main_v13 (F := Ideal) x2) x3 x4 j
    (fun k => val_main_v19 (F := Ideal) x0 x1 x2 (lidx_main_v21 j k)) (fun k => val_main_v20 (F := Ideal) x3 (ridx_main_v21 j k))
    (fun k => ?_) (fun k => ?_) (fun k => ?_)
  · show val_main_v19 (F := Ideal) x0 x1 x2 (lidx_main_v21 j (Fin.castAdd 64 k)) = x0 (ix2 (j 0) k)
    unfold val_main_v19
    exact cat_left x0 _ (lidx_main_v21 j (Fin.castAdd 64 k)) k rfl
  · show val_main_v19 (F := Ideal) x0 x1 x2 (lidx_main_v21 j (Fin.natAdd 64 k)) = _
    unfold val_main_v19
    refine (cat_right x0 _ (lidx_main_v21 j (Fin.natAdd 64 k)) k (Nat.add_comm _ _)).trans ?_
    show val_main_v18 (F := Ideal) x0 x1 x2 (ix2 (j 0) k) = _
    have hi : idx_main_v16 (idx_main_v17 (ix2 (j 0) k)) = ix1 (j 0) := funext fun a => match a with | ⟨0, _⟩ => rfl
    rw [val_main_v18_apply, val_main_v17_apply, val_main_v16_apply, val_main_v15_apply, val_main_v14_apply,
      val_main_cst_3_apply, Ideal.hostDivf_def, Ideal.maximumf_def, Ideal.ofBits_def, hi]
    rfl
  · show val_main_v20 (F := Ideal) x3 (ridx_main_v21 j k) = x3 (ix2 (j 1) k)
    rw [val_main_v20_apply]
    exact congrArg x3 (funext fun a => match a with | ⟨0, _⟩ => rfl | ⟨1, _⟩ => rfl)

/-- The second layer's edge aggregation is the first layer's, applied to the first layer's output. -/
theorem agg2_eq (x0 : (⟨S100000x64, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal)) :
    val_main_v35 (F := Ideal) x0 x1 x2 x3 x4
      = val_main_v9 (F := Ideal) (val_main_v25 (F := Ideal) x0 x1 x2 x3 x4) x1 x2 := rfl

/-- The second layer counts the same incoming edges as the first. -/
theorem deg2_eq (x2 : (⟨S1600000, .i32⟩ : BufTy).Contents (Elt Ideal)) :
    val_main_v39 (F := Ideal) x2 = val_main_v13 (F := Ideal) x2 := rfl

/-- layer 2 of the reference is the specification's layer at the first layer's output -/
theorem layer2_eq (x0 : (⟨S100000x64, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal))
    (x5 : (⟨S32x128, .f32⟩ : BufTy).Contents (Elt Ideal)) (x6 : (⟨S32, .f32⟩ : BufTy).Contents (Elt Ideal)) :
    val_main_v50 (F := Ideal) x0 x1 x2 x3 x4 x5 x6
      = Sage.lin (val_main_v25 (F := Ideal) x0 x1 x2 x3 x4)
          (val_main_v9 (F := Ideal) (val_main_v25 (F := Ideal) x0 x1 x2 x3 x4) x1 x2) (val_main_v13 (F := Ideal) x2) x5 x6 := by
  funext j
  rw [val_main_v50_apply, val_main_v47_apply, val_main_v49_apply, val_main_v48_apply, Ideal.addf_def]
  have hb : idx_main_v48 (idx_main_v49 j) = ix1 (j 1) := funext fun a => match a with | ⟨0, _⟩ => rfl
  rw [hb]
  refine Sage.lin_of_joined (val_main_v25 (F := Ideal) x0 x1 x2 x3 x4)
    (val_main_v9 (F := Ideal) (val_main_v25 (F := Ideal) x0 x1 x2 x3 x4) x1 x2) (val_main_v13 (F := Ideal) x2) x5 x6 j
    (fun k => val_main_v45 (F := Ideal) x0 x1 x2 x3 x4 (lidx_main_v47 j k)) (fun k => val_main_v46 (F := Ideal) x5 (ridx_main_v47 j k))
    (fun k => ?_) (fun k => ?_) (fun k => ?_)
  · show val_main_v45 (F := Ideal) x0 x1 x2 x3 x4 (lidx_main_v47 j (Fin.castAdd 64 k)) = val_main_v25 (F := Ideal) x0 x1 x2 x3 x4 (ix2 (j 0) k)
    unfold val_main_v45
    exact cat_left (val_main_v25 (F := Ideal) x0 x1 x2 x3 x4) _ (lidx_main_v47 j (Fin.castAdd 64 k)) k rfl
  · show val_main_v45 (F := Ideal) x0 x1 x2 x3 x4 (lidx_main_v47 j (Fin.natAdd 64 k)) = _
    unfold val_main_v45
    refine (cat_right (val_main_v25 (F := Ideal) x0 x1 x2 x3 x4) _ (lidx_main_v47 j (Fin.natAdd 64 k)) k (Nat.add_comm _ _)).trans ?_
    show val_main_v44 (F := Ideal) x0 x1 x2 x3 x4 (ix2 (j 0) k) = _
    have hi : idx_main_v42 (idx_main_v43 (ix2 (j 0) k)) = ix1 (j 0) := funext fun a => match a with | ⟨0, _⟩ => rfl
    rw [val_main_v44_apply, val_main_v43_apply, val_main_v42_apply, val_main_v41_apply, val_main_v40_apply,
      val_main_cst_9_apply, Ideal.hostDivf_def, Ideal.maximumf_def, Ideal.ofBits_def, hi, agg2_eq, deg2_eq]
    rfl
  · show val_main_v46 (F := Ideal) x5 (ridx_main_v47 j k) = x5 (ix2 (j 1) k)
    rw [val_main_v46_apply]
    exact congrArg x5 (funext fun a => match a with | ⟨0, _⟩ => rfl | ⟨1, _⟩ => rfl)

/-- the reference's result is the specification's two-layer network, the edge aggregation and the degree opaque -/
theorem result_eq (x0 : (⟨S100000x64, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal))
    (x5 : (⟨S32x128, .f32⟩ : BufTy).Contents (Elt Ideal)) (x6 : (⟨S32, .f32⟩ : BufTy).Contents (Elt Ideal)) :
    val_main_v50 (F := Ideal) x0 x1 x2 x3 x4 x5 x6
      = Sage.net (fun x => val_main_v9 (F := Ideal) x x1 x2) (val_main_v13 (F := Ideal) x2) x0 x3 x4 x5 x6 := by
  rw [layer2_eq, layer1_eq]
  rfl

end Cert.ReferenceIdeal.RefValue
end
-- ==== Proof.lean ====
/-
  The certificate's claims.

  Both programs compute a two-layer mean-aggregating graph convolution.  On the extended reals each layer is
      out[i, o] = sum_k x[i,k] W[o,k] + sum_k (a[i,k] / max(deg[i], 1)) W[o, 64+k] + b[o]
  (rectified after the first layer), `a` the sum of `x` over the incoming edges and `deg` their number.  The reference
  forms the quotient, joins it to `x` and contracts 128 features at once; the kernel's program multiplies by the
  reciprocal on the host and contracts the two halves apart inside a kernel over ten row blocks.  The two agree because a
  quotient by the never-zero `max(deg, 1)` is the product with its reciprocal and a sum over 64 + 64 indices is the sum
  of the halves' sums; the edge aggregation itself is the same term of the same arrays on both sides and is never
  opened.  The three frames are the generated ones (the reference's is its generated run with the result dropped); the
  idealization rewrote nothing.
-/
import proofs.«148539_j60327110639807_1_alg».proof.Defs
import proofs.«148539_j60327110639807_1_alg».proof.Proof.Gen.Kernel
import proofs.«148539_j60327110639807_1_alg».proof.Proof.Gen.Kernel.Frame
import proofs.«148539_j60327110639807_1_alg».proof.Proof.Gen.KernelIdeal
import proofs.«148539_j60327110639807_1_alg».proof.Proof.Gen.KernelIdeal.Frame
import proofs.«148539_j60327110639807_1_alg».proof.Proof.Gen.ReferenceIdeal
import proofs.«148539_j60327110639807_1_alg».proof.Proof.Gen.ReferenceIdeal.Run
import proofs.«148539_j60327110639807_1_alg».proof.Proof.Gen.ReferenceIdeal.Read
import proofs.«148539_j60327110639807_1_alg».proof.Proof.Gen.Pre_finite_inputs
import proofs.«148539_j60327110639807_1_alg».proof.Proof.KValue
import proofs.«148539_j60327110639807_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's edge aggregation and the kernel program's are one function of the edge lists and the features: the
    same gather and scatter-add of the same broadcasts. -/
theorem agg_eq (src dst : IVec Cert.KernelIdeal.S1600000 32) :
    (fun x => Cert.ReferenceIdeal.Read.val_main_v9 (F := Ideal) x src dst) = Cert.KernelIdeal.Layer.agg src dst := rfl

/-- Likewise the degree count. -/
theorem deg_eq (dst : IVec Cert.KernelIdeal.S1600000 32) :
    Cert.ReferenceIdeal.Read.val_main_v13 (F := Ideal) dst = Cert.KernelIdeal.Layer.deg dst := rfl

/-- From memories agreeing on the arguments both programs end with the result array at the same two-layer network of
    the arguments. -/
theorem algebraic : Cert.algebraic_KernelIdeal_ReferenceIdeal := by
  intro m ρ m' ρ' _ hagree
  refine ⟨fun c => Sage.net (Cert.KernelIdeal.Layer.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.KernelIdeal.Layer.deg (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v50_eq, Cert.ReferenceIdeal.RefValue.result_eq, h0, h1, h2, h3, h4, h5, h6]
  exact congrArg₂ (fun a d => Sage.net a d (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (agg_eq _ _) (deg_eq _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
